-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x4096 : Shape := ⟨3, ![32, 128, 4096]⟩
abbrev S128x512 : Shape := ⟨2, ![128, 512]⟩
abbrev S_ : Shape := ⟨0, ![]⟩

class Facts : Prop where
  bcast_S_S32x128x4096 : S_.BroadcastsInDim S32x128x4096 (![] : Fin 0 → Fin S32x128x4096.rank)
  reducesTo_S32x128x4096_S_d0_1_2 : S32x128x4096.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_

variable [Facts]

def fn {F : FTy → Type} [FloatOps F] (main_arg0 : FVec F S32x128x4096 .f32) (main_arg1 : FVec F S128x512 .f32) : IVec S_ 1 :=
  let main_v0 : FVec F S32x128x4096 .f32 := Host.absf main_arg0
  let main_cst : FVec F S_ .f32 := constant S_ .f32 0x7F800000#32
  let main_v1 : FVec F S32x128x4096 .f32 := broadcastInDim S32x128x4096 ![] bcast_S_S32x128x4096 main_cst
  let main_v2 : IVec S32x128x4096 1 := cmpf .olt main_v0 main_v1
  let main_c : IVec S_ 1 := constantI S_ 1 1#1
  let main_v3 : IVec S_ 1 := (fun x v => Host.reduce IntOp.andi x v reducesTo_S32x128x4096_S_d0_1_2 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  main_v8
-- ==== Kernel.lean ====
abbrev S32x128x4096 : Shape := ⟨3, ![32, 128, 4096]⟩
abbrev S128x512 : Shape := ⟨2, ![128, 512]⟩
abbrev S32x512x4096 : Shape := ⟨3, ![32, 512, 4096]⟩
abbrev S1x128x1024 : Shape := ⟨3, ![1, 128, 1024]⟩
abbrev S1x512x1024 : Shape := ⟨3, ![1, 512, 1024]⟩
abbrev S128x1024 : Shape := ⟨2, ![128, 1024]⟩
abbrev S512 : Shape := ⟨1, ![512]⟩
abbrev S1024 : Shape := ⟨1, ![1024]⟩
abbrev S512x1024 : Shape := ⟨2, ![512, 1024]⟩
abbrev S1x1024 : Shape := ⟨2, ![1, 1024]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S32x128x4096, .f32⟩
  | .hbm, ⟨1, _⟩ => ⟨S128x512, .f32⟩
  | .hbm, ⟨2, _⟩ => ⟨S32x512x4096, .f32⟩
  | .local _ .vmem, ⟨0, _⟩ => ⟨S128x512, .f32⟩
  | .local _ .vmem, ⟨1, _⟩ => ⟨S1x128x1024, .f32⟩
  | .local _ .vmem, ⟨2, _⟩ => ⟨S1x128x1024, .f32⟩
  | .local _ .vmem, ⟨3, _⟩ => ⟨S1x512x1024, .f32⟩
  | .local _ .vmem, ⟨4, _⟩ => ⟨S1x512x1024, .f32⟩
  | _, _ => ⟨S32x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x512_S128x512_0_0 : ∀ a, (![0, 0] : Fin 2 → Nat) a + S128x512.size a ≤ S128x512.size a
  h_S128x512 : 0 < S128x512.numel
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  reduces_S128x512_S512 : S128x512.Reduces [0] S512
  reduces_S128x1024_S1024 : S128x1024.Reduces [0] S1024
  shapeCasts_S1024_S1x1024 : S1024.ShapeCasts S1x1024
  broadcasts_S1x1024_S512x1024 : S1x1024.Broadcasts S512x1024
  shapeCasts_S512_S512x1 : S512.ShapeCasts S512x1
  broadcasts_S512x1_S512x1024 : S512x1.Broadcasts S512x1024
  reduces_S512x1024_S1024 : S512x1024.Reduces [0] S1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S128x512_S128x1024_S512x1024_0_0_1_1_n_n_wf : DotDims.WF S128x512 S128x1024 S512x1024 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .f32 = 32 ∨ (Rect.block (s := S128x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S32x128x4096.size a
  hwx0_1 : ∀ i : grid0.Coords, EltTy.bits .f32 = 32 ∨ (Rect.block (s := S32x128x4096) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x512x4096.size a
  hwx0_2 : ∀ i : grid0.Coords, EltTy.bits .f32 = 32 ∨ (Rect.block (s := S32x512x4096) S1x512x1024.size (cc0_transform_2 i) (hinb0_2 i)).WholeWords (EltTy.packing .f32)

variable [Facts₀]

def dot_S128x512_S128x1024_S512x1024_0_0_1_1_n_n : DotDims S128x512 S128x1024 S512x1024 where
  lhsContracting := [0]
  rhsContracting := [0]
  lhsNonContracting := [1]
  rhsNonContracting := [1]
  lhsBatch := []
  rhsBatch := []
  wf := dot_S128x512_S128x1024_S512x1024_0_0_1_1_n_n_wf

abbrev win0_0 : Pipeline.Window sig grid0 :=
  Pipeline.Window.ofSpec (Memref.whole main_arg1) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x4096 : Shape := ⟨3, ![32, 128, 4096]⟩
abbrev S128x512 : Shape := ⟨2, ![128, 512]⟩
abbrev S32x4096x128 : Shape := ⟨3, ![32, 4096, 128]⟩
abbrev S_ : Shape := ⟨0, ![]⟩
abbrev S32x4096 : Shape := ⟨2, ![32, 4096]⟩
abbrev S32x4096x1 : Shape := ⟨3, ![32, 4096, 1]⟩
abbrev S512 : Shape := ⟨1, ![512]⟩
abbrev S32x4096x512 : Shape := ⟨3, ![32, 4096, 512]⟩
abbrev S1x1x512 : Shape := ⟨3, ![1, 1, 512]⟩
abbrev S32x512x4096 : Shape := ⟨3, ![32, 512, 4096]⟩

abbrev nBuf : Space → Nat
  | .hbm => 35
  | .vmem => 0
  | .smem => 0
  | _ => 0

abbrev bufTy : (tb : Table) → Fin (tcTables nBuf tb) → BufTy
  | .hbm, ⟨0, _⟩ => ⟨S32x128x4096, .f32⟩
  | .hbm, ⟨1, _⟩ => ⟨S128x512, .f32⟩
  | .hbm, ⟨2, _⟩ => ⟨S32x4096x128, .f32⟩
  | .hbm, ⟨3, _⟩ => ⟨S32x4096x128, .f32⟩
  | .hbm, ⟨4, _⟩ => ⟨S_, .f32⟩
  | .hbm, ⟨5, _⟩ => ⟨S32x4096, .f32⟩
  | .hbm, ⟨6, _⟩ => ⟨S32x4096x1, .f32⟩
  | .hbm, ⟨7, _⟩ => ⟨S128x512, .f32⟩
  | .hbm, ⟨8, _⟩ => ⟨S_, .f32⟩
  | .hbm, ⟨9, _⟩ => ⟨S512, .f32⟩
  | .hbm, ⟨10, _⟩ => ⟨S32x4096x512, .f32⟩
  | .hbm, ⟨11, _⟩ => ⟨S_, .f32⟩
  | .hbm, ⟨12, _⟩ => ⟨S32x4096x512, .f32⟩
  | .hbm, ⟨13, _⟩ => ⟨S32x4096x512, .f32⟩
  | .hbm, ⟨14, _⟩ => ⟨S32x4096x512, .f32⟩
  | .hbm, ⟨15, _⟩ => ⟨S32x4096x512, .f32⟩
  | .hbm, ⟨16, _⟩ => ⟨S1x1x512, .f32⟩
  | .hbm, ⟨17, _⟩ => ⟨S32x4096x512, .f32⟩
  | .hbm, ⟨18, _⟩ => ⟨S32x4096x512, .f32⟩
  | .hbm, ⟨19, _⟩ => ⟨S32x4096x512, .f32⟩
  | .hbm, ⟨20, _⟩ => ⟨S_, .f32⟩
  | .hbm, ⟨21, _⟩ => ⟨S32x4096, .f32⟩
  | .hbm, ⟨22, _⟩ => ⟨S_, .f32⟩
  | .hbm, ⟨23, _⟩ => ⟨S32x4096, .f32⟩
  | .hbm, ⟨24, _⟩ => ⟨S32x4096, .f32⟩
  | .hbm, ⟨25, _⟩ => ⟨S32x4096x1, .f32⟩
  | .hbm, ⟨26, _⟩ => ⟨S32x4096x512, .f32⟩
  | .hbm, ⟨27, _⟩ => ⟨S32x4096x512, .f32⟩
  | .hbm, ⟨28, _⟩ => ⟨S32x4096x512, .f32⟩
  | .hbm, ⟨29, _⟩ => ⟨S_, .f32⟩
  | .hbm, ⟨30, _⟩ => ⟨S32x4096, .f32⟩
  | .hbm, ⟨31, _⟩ => ⟨S32x4096x1, .f32⟩
  | .hbm, ⟨32, _⟩ => ⟨S32x4096x512, .f32⟩
  | .hbm, ⟨33, _⟩ => ⟨S32x4096x512, .f32⟩
  | .hbm, ⟨34, _⟩ => ⟨S32x512x4096, .f32⟩
  | _, _ => ⟨S32x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  transposes_S32x128x4096_S32x4096x128_0_2_1 : S32x128x4096.Transposes [0, 2, 1] S32x4096x128
  reducesTo_S32x4096x128_S32x4096_d2 : S32x4096x128.ReducesTo [2] S32x4096
  h_S_ : 0 < S_.numel
  bcast_S32x4096_S32x4096x1_0_1 : S32x4096.BroadcastsInDim S32x4096x1 (![0, 1] : Fin 2 → Fin S32x4096x1.rank)
  reducesTo_S128x512_S512_d0 : S128x512.ReducesTo [0] S512
  bcast_S_S32x4096x512 : S_.BroadcastsInDim S32x4096x512 (![] : Fin 0 → Fin S32x4096x512.rank)
  bcast_S32x4096x1_S32x4096x512_0_1_2 : S32x4096x1.BroadcastsInDim S32x4096x512 (![0, 1, 2] : Fin 3 → Fin S32x4096x512.rank)
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  reducesTo_S32x4096x512_S32x4096_d2 : S32x4096x512.ReducesTo [2] S32x4096
  bcast_S_S32x4096 : S_.BroadcastsInDim S32x4096 (![] : Fin 0 → Fin S32x4096.rank)
  transposes_S32x4096x512_S32x512x4096_0_2_1 : S32x4096x512.Transposes [0, 2, 1] S32x512x4096
  dot_S32x4096x128_S128x512_S32x4096x512_2_0_01_1_n_n_wf : DotDims.WF S32x4096x128 S128x512 S32x4096x512 [2] [0] [0, 1] [1] [] []

variable [Facts₀]

def dot_S32x4096x128_S128x512_S32x4096x512_2_0_01_1_n_n : DotDims S32x4096x128 S128x512 S32x4096x512 where
  lhsContracting := [2]
  rhsContracting := [0]
  lhsNonContracting := [0, 1]
  rhsNonContracting := [1]
  lhsBatch := []
  rhsBatch := []
  wf := dot_S32x4096x128_S128x512_S32x4096x512_2_0_01_1_n_n_wf

class Facts : Prop extends Facts₀ where

variable [Facts]
-- ==== Proof.Spec.lean ====
/-
  The function both programs compute, stated once over plain index types.

  For one batch entry and one time step the input `H` gives a column `h : Fin 128 → EReal`; the codebook `units`
  is a matrix `u : Fin 128 → Fin 512 → EReal` whose column `s` is the `s`-th memory unit. The negated squared
  distance between the column and unit `s` is written in its expanded form
      0 - ((‖h‖² - 2 · ⟨u_s, h⟩) + ‖u_s‖²),
  the three sums over the 128 coordinates. The result is the softmax of these 512 numbers over `s`, computed the
  stable way: subtract their maximum (a fold of `max` from -∞), exponentiate, divide by the sum of the exponentials.
  The three float literals (0, 2 and -∞) are kept as the words the programs print; both programs print the same words,
  so they are never evaluated except where a zero has to be recognised as the additive unit.
-/
import Idealize.ShloMosaic.PureOps.Ideal.Laws
import Idealize.ShloMosaic.Lib.ValueIdx

noncomputable section

open scoped BigOperators

namespace Cert.SoftAssign

open Idealize.ShloMosaic Idealize.ShloMosaic.ValueIdx

/-- The word of `0.0`, read as an extended real. -/
abbrev zeroW : EReal := Ideal.ofBits .f32 0x00000000#32
/-- The word of `2.0`, read as an extended real. -/
abbrev twoW : EReal := Ideal.ofBits .f32 0x40000000#32
/-- The word of `-∞`, read as an extended real. -/
abbrev ninfW : EReal := Ideal.ofBits .f32 0xFF800000#32

/-- The negated squared distance between the column `h` and unit `s`, in expanded form. -/
def negDist (u : Fin 128 → Fin 512 → EReal) (h : Fin 128 → EReal) (s : Fin 512) : EReal :=
  zeroW - (((∑ d : Fin 128, h d * h d) - twoW * ∑ d : Fin 128, u d s * h d) + ∑ d : Fin 128, u d s * u d s)

/-- The largest negated distance over the 512 units, as a fold of `max` from -∞. -/
def colMax (u : Fin 128 → Fin 512 → EReal) (h : Fin 128 → EReal) : EReal :=
  (Finset.univ : Finset (Fin 512)).fold max ninfW (negDist u h)

/-- The shifted exponential of unit `s`. -/
def expo (u : Fin 128 → Fin 512 → EReal) (h : Fin 128 → EReal) (s : Fin 512) : EReal :=
  Ideal.exp (negDist u h s - colMax u h)

/-- The softmax weight of unit `s`. -/
def weight (u : Fin 128 → Fin 512 → EReal) (h : Fin 128 → EReal) (s : Fin 512) : EReal :=
  Ideal.div (expo u h s) (∑ s' : Fin 512, expo u h s')

/-- The whole result: entry `(b, s, t)` is the weight of unit `s` for the column `H[b, ·, t]`. -/
def assign (H : (⟨3, ![32, 128, 4096]⟩ : Shape).Idx → EReal) (U : (⟨2, ![128, 512]⟩ : Shape).Idx → EReal) :
    (⟨3, ![32, 512, 4096]⟩ : Shape).Idx → EReal :=
  fun i => weight (fun d s => U (ix2 d s)) (fun d => H (@ix3 32 128 4096 (i 0) d (i 2))) (i 1)

/-- The result at an index given by its coordinates. -/
theorem assign_ix3 (H : (⟨3, ![32, 128, 4096]⟩ : Shape).Idx → EReal) (U : (⟨2, ![128, 512]⟩ : Shape).Idx → EReal)
    (b : Fin 32) (s : Fin 512) (t : Fin 4096) :
    assign H U (ix3 b s t) = weight (fun d s => U (ix2 d s)) (fun d => H (ix3 b d t)) s := rfl

/-- Negation is subtraction from the zero word. -/
theorem neg_eq_zeroW_sub (x : EReal) : -x = zeroW - x := by
  show -x = Ideal.ofBits .f32 0x00000000#32 - x
  rw [Ideal.ofBits_zero_f32, zero_sub]

/-- The zero word is the additive unit. -/
theorem zeroW_add (x : EReal) : zeroW + x = x := by
  show Ideal.ofBits .f32 0x00000000#32 + x = x
  rw [Ideal.ofBits_zero_f32, zero_add]

/-- Taking the maximum with the fold's own starting value changes nothing. -/
theorem max_init_fold {ι : Type*} (S : Finset ι) (b : EReal) (f : ι → EReal) :
    max b (S.fold max b f) = S.fold max b f :=
  max_eq_right ((Finset.le_fold_max b).2 (Or.inl le_rfl))

end Cert.SoftAssign

end
-- ==== Proof.RefValue.lean ====
/-
  The reference program computes `assign`.

  Read one host operation at a time: the transposed input's squared column norm, the units' squared column
  norms and the contraction of the two over the 128 coordinates give the expanded squared distance at
  `(b, t, s)`; the host negates it (the same as subtracting from zero), takes the maximum over `s` from -∞ (and once
  more against a splat of -∞, which changes nothing), exponentiates the shifted values, sums them over `s` from a zero
  initial value, divides, and transposes `(b, t, s)` to `(b, s, t)`. The only algebra used is commutativity of the
  product inside the contraction (the host multiplies input by unit, the specification unit by input), and that zero
  is the additive unit.
-/
import proofs.«166544_j30099130810384_1_alg».proof.Proof.Spec
import proofs.«166544_j30099130810384_1_alg».proof.Proof.Gen.ReferenceIdeal.Read

noncomputable section

open scoped BigOperators

namespace Cert.SoftAssign.Ref

open Cert.ReferenceIdeal Cert.ReferenceIdeal.Gen Cert.ReferenceIdeal.Read Idealize.ShloMosaic Idealize.ShloMosaic.ValueIdx
open Cert.SoftAssign

variable (H : (⟨S32x128x4096, .f32⟩ : BufTy).Contents (Elt Ideal)) (U : (⟨S128x512, .f32⟩ : BufTy).Contents (Elt Ideal))

/-- The units as a matrix of columns. -/
abbrev um : Fin 128 → Fin 512 → EReal := fun d s => U (ix2 d s)
/-- The input's column at batch `b` and time `t`. -/
abbrev hc (b : Fin 32) (t : Fin 4096) : Fin 128 → EReal := fun d => H (ix3 b d t)

/-- The negated expanded squared distance, at `(b, t, s)`. -/
theorem negd_at (b : Fin 32) (t : Fin 4096) (s : Fin 512) :
    val_main_v14 (F := Ideal) H U (ix3 b t s) = negDist (um U) (hc H b t) s := by
  rw [val_main_v14_apply, val_main_v13_apply, val_main_v10_apply, val_main_v9_apply, val_main_v3_apply, val_main_v2_apply,
    val_main_v8_apply, val_main_v7_apply, val_main_v6_apply, val_main_v12_apply, val_main_v11_apply, val_main_v5_apply]
  have e0 : ∀ k : Fin 128, idx_main_v0 (idx_main_v2 (idx_main_v3 (idx_main_v9 (ix3 b t s))) k) = ix3 b k t := fun k =>
    funext fun a => Fin.ext (by match a with | ⟨0, _⟩ => rfl | ⟨1, _⟩ => rfl | ⟨2, _⟩ => rfl)
  have e1 : ∀ k : Fin 128, idx_main_v0 (lidx_main_v6 (ix3 b t s) k) = ix3 b k t := fun k =>
    funext fun a => Fin.ext (by match a with | ⟨0, _⟩ => rfl | ⟨1, _⟩ => rfl | ⟨2, _⟩ => rfl)
  have e2 : ∀ k : Fin 128, ridx_main_v6 (ix3 b t s) k = ix2 k s := fun k =>
    funext fun a => Fin.ext (by match a with | ⟨0, _⟩ => rfl | ⟨1, _⟩ => rfl)
  have e3 : ∀ k : Fin 128, idx_main_v5 (idx_main_v11 (idx_main_v12 (ix3 b t s))) k = ix2 k s := fun k =>
    funext fun a => Fin.ext (by match a with | ⟨0, _⟩ => rfl | ⟨1, _⟩ => rfl)
  simp only [val_main_v1_apply, val_main_v0_apply, val_main_v4_apply, val_main_cst_apply, val_main_cst_0_apply,
    val_main_cst_1_apply, e0, e1, e2, e3, Ideal.hostNegf_def, Ideal.negf_def, Ideal.addf_def, Ideal.subf_def,
    Ideal.mulf_def, Ideal.ofBits_def]
  have ec : (∑ k : Fin 128, H (ix3 b k t) * U (ix2 k s)) = ∑ d : Fin 128, U (ix2 d s) * H (ix3 b d t) :=
    Finset.sum_congr rfl fun k _ => mul_comm _ _
  rw [ec, neg_eq_zeroW_sub, zeroW_add, zeroW_add]
  rfl

/-- The last axis of `[32, 4096, 512]` reduces to `[32, 4096]`; this witness names the index with the dropped coordinate put back. -/
theorem hred : S32x4096x512.Reduces [2] S32x4096 := by decide

/-- The maximum over the units, at `(b, t)`: the host's reduce is a fold of `max` from -∞ over the last axis, and the
    extra maximum with a splat of -∞ leaves it unchanged. -/
theorem colmax_at (b : Fin 32) (t : Fin 4096) :
    val_main_v17 (F := Ideal) H U (ix2 b t) = colMax (um U) (hc H b t) := by
  rw [val_main_v17_apply, val_main_v16_apply, val_main_cst_3_apply]
  unfold val_main_v15
  rw [Host.reduce_eq_fold_single FloatOps.maximumf _ _ reducesTo_S32x4096x512_S32x4096_d2 hred h_S_]
  refine (max_init_fold (Finset.univ : Finset (Fin 512)) ninfW
    (fun k => val_main_v14 (F := Ideal) H U (hred.lift (ix2 b t) k))).trans ?_
  unfold colMax
  refine Finset.fold_congr fun k _ => ?_
  show val_main_v14 (F := Ideal) H U (hred.lift (ix2 b t) k) = _
  rw [show hred.lift (ix2 b t) k = ix3 b t k from
    funext fun a => Fin.ext (by match a with | ⟨0, _⟩ => rfl | ⟨1, _⟩ => rfl | ⟨2, _⟩ => rfl)]
  exact negd_at H U b t k

/-- The shifted exponential, at `(b, t, s)`. -/
theorem expo_at (b : Fin 32) (t : Fin 4096) (s : Fin 512) :
    val_main_v21 (F := Ideal) H U (ix3 b t s) = expo (um U) (hc H b t) s := by
  rw [val_main_v21_apply, val_main_v20_apply, val_main_v19_apply, val_main_v18_apply,
    show idx_main_v18 (idx_main_v19 (ix3 b t s)) = ix2 b t from
      funext fun a => Fin.ext (by match a with | ⟨0, _⟩ => rfl | ⟨1, _⟩ => rfl),
    colmax_at, negd_at]
  rfl

/-- The sum of the exponentials over the units, at `(b, t)`. -/
theorem den_at (b : Fin 32) (t : Fin 4096) :
    val_main_v22 (F := Ideal) H U (ix2 b t) = ∑ s : Fin 512, expo (um U) (hc H b t) s := by
  rw [val_main_v22_apply, val_main_cst_4_apply]
  show zeroW + _ = _
  rw [zeroW_add]
  refine Finset.sum_congr rfl fun k _ => ?_
  rw [show idx_main_v22 (ix2 b t) k = ix3 b t k from
    funext fun a => Fin.ext (by match a with | ⟨0, _⟩ => rfl | ⟨1, _⟩ => rfl | ⟨2, _⟩ => rfl)]
  exact expo_at H U b t k

/-- The reference's result is `assign` of its two arguments. -/
theorem ref_eq : val_main_v26 (F := Ideal) H U = assign H U := by
  funext i
  obtain ⟨b, s, t, rfl⟩ : ∃ (b : Fin 32) (s : Fin 512) (t : Fin 4096), i = ix3 b s t := ⟨i 0, i 1, i 2, eq_ix3 i⟩
  rw [assign_ix3, val_main_v26_apply, val_main_v25_apply, val_main_v24_apply, val_main_v23_apply,
    show idx_main_v26 (ix3 b s t) = ix3 b t s from
      funext fun a => Fin.ext (by match a with | ⟨0, _⟩ => rfl | ⟨1, _⟩ => rfl | ⟨2, _⟩ => rfl),
    show idx_main_v23 (idx_main_v24 (ix3 b t s)) = ix2 b t from
      funext fun a => Fin.ext (by match a with | ⟨0, _⟩ => rfl | ⟨1, _⟩ => rfl),
    expo_at, den_at]
  rfl

end Cert.SoftAssign.Ref

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayload.lean ====
/-
  The kernel body computes, on one block, the softmax weights of `Spec.lean`.

  The body holds the whole codebook `x0 : [128, 512]` and one block `x1 : [1, 128, 1024]` of the input: 1024 consecutive
  time steps of one batch entry. Its value is cut into the stages the body goes through — the block with its unit axis
  dropped, the two squared column norms (sums over the 128 rows), the contraction of codebook and block over the rows,
  the negated expanded squared distance, its maximum over the 512 units, the shifted exponentials, their sum over the
  units, the quotient — and each stage is read at an index given by coordinates. A sum over rows is the reduction over
  axis 0 read at a column; the contraction is a matrix product into a zero accumulator, re-indexed by its one
  contracted coordinate; a row vector `[1024]` reaches the `[512, 1024]` matrix through `[1, 1024]`, a column vector
  `[512]` through `[512, 1]`.
-/
import proofs.«166544_j30099130810384_1_alg».proof.Proof.Spec
import proofs.«166544_j30099130810384_1_alg».proof.Proof.LibColumns
import proofs.«166544_j30099130810384_1_alg».proof.Proof.Gen.KernelIdeal.Skeleton
import Idealize.ShloMosaic.Lib.ValueLayout
import Idealize.ShloMosaic.Lib.Pipeline.Value
import Idealize.ShloMosaic.PureOps.Ideal.Laws

noncomputable section

open scoped BigOperators

namespace Cert.SoftAssign.Kern

open Cert.KernelIdeal Cert.KernelIdeal.Gen Idealize.ShloMosaic Idealize.ShloMosaic.ValueIdx Cert.SoftAssign

variable (x0 : FVec Ideal S128x512 .f32) (x1 : FVec Ideal S1x128x1024 .f32)

/-! ## The stages -/

/-- The input block as a `[128, 1024]` matrix. -/
def hmat : FVec Ideal S128x1024 .f32 := shapeCast S128x1024 x1 shapeCasts_S1x128x1024_S128x1024
/-- The squared norm of each codebook column. -/
def usq : FVec Ideal S512 .f32 :=
  multiReduction .add [0] S512 (mulf x0 x0) 0x00000000#32 reduces_S128x512_S512 (.inl rfl) rfl
/-- The squared norm of each input column. -/
def hsq : FVec Ideal S1024 .f32 :=
  multiReduction .add [0] S1024 (mulf (hmat x1) (hmat x1)) 0x00000000#32 reduces_S128x1024_S1024 (.inl rfl) rfl
/-- The inner products of codebook columns with input columns. -/
def cross : FVec Ideal S512x1024 .f32 :=
  matmul dot_S128x512_S128x1024_S512x1024_0_0_1_1_n_n (some .fp32) x0 (hmat x1) (constant S512x1024 .f32 0x00000000#32)
/-- The negated expanded squared distances. -/
def negd : FVec Ideal S512x1024 .f32 :=
  subf (broadcast S512x1024 (Scalar.ofBits .f32 0x00000000#32))
    (addf
      (subf (broadcastTo S512x1024 (shapeCast S1x1024 (hsq x1) shapeCasts_S1024_S1x1024) broadcasts_S1x1024_S512x1024)
        (mulf (broadcast S512x1024 (Scalar.ofBits .f32 0x40000000#32)) (cross x0 x1)))
      (broadcastTo S512x1024 (shapeCast S512x1 (usq x0) shapeCasts_S512_S512x1) broadcasts_S512x1_S512x1024))
/-- Their maximum over the units, per input column. -/
def cmax : FVec Ideal S1024 .f32 :=
  multiReduction .maximumf [0] S1024 (negd x0 x1) 0xFF800000#32 reduces_S512x1024_S1024 (.inl rfl) rfl
/-- The shifted exponentials. -/
def expv : FVec Ideal S512x1024 .f32 :=
  exp (subf (negd x0 x1)
    (broadcastTo S512x1024 (shapeCast S1x1024 (cmax x0 x1) shapeCasts_S1024_S1x1024) broadcasts_S1x1024_S512x1024))
/-- Their sum over the units, per input column. -/
def esum : FVec Ideal S1024 .f32 :=
  multiReduction .add [0] S1024 (expv x0 x1) 0x00000000#32 reduces_S512x1024_S1024 (.inl rfl) rfl
/-- The weights. -/
def quot : FVec Ideal S512x1024 .f32 :=
  divf (expv x0 x1)
    (broadcastTo S512x1024 (shapeCast S1x1024 (esum x0 x1) shapeCasts_S1024_S1x1024) broadcasts_S1x1024_S512x1024)

/-- The body's stored value is the last stage with the unit axis put back. -/
theorem pay_eq : k0_pay1 (F := Ideal) x0 x1 = shapeCast S1x512x1024 (quot x0 x1) shapeCasts_S512x1024_S1x512x1024 := rfl

/-! ## Each stage at an index -/

/-- The codebook as a matrix of columns. -/
abbrev um : Fin 128 → Fin 512 → EReal := fun d s => x0 (ix2 d s)
/-- Column `t` of the input block. -/
abbrev hc (t : Fin 1024) : Fin 128 → EReal := fun d => x1 (ix3 (0 : Fin 1) d t)

theorem hmat_at (d : Fin 128) (t : Fin 1024) : hmat x1 (ix2 d t) = x1 (ix3 (0 : Fin 1) d t) :=
  shapeCast_1ab_ab_apply x1 shapeCasts_S1x128x1024_S128x1024 d t

/-- A sum over the rows of a `[128, 512]` matrix, at column `s`. -/
theorem rowsum512 (v : FVec Ideal S128x512 .f32) (s : Fin 512) :
    multiReduction .add [0] S512 v 0x00000000#32 reduces_S128x512_S512 (.inl rfl) rfl (ix1 s)
      = ∑ d : Fin 128, v (ix2 d s) := by
  refine (Ideal.multiReduction_add_single v 0x00000000#32 reduces_S128x512_S512 (.inl rfl) rfl (ix1 s)).trans ?_
  refine Finset.sum_congr rfl fun k _ => congrArg v ?_
  exact funext fun a => Fin.ext (by match a with | ⟨0, _⟩ => rfl | ⟨1, _⟩ => rfl)

/-- A sum over the rows of a `[128, 1024]` matrix, at column `t`. -/
theorem rowsum1024 (v : FVec Ideal S128x1024 .f32) (t : Fin 1024) :
    multiReduction .add [0] S1024 v 0x00000000#32 reduces_S128x1024_S1024 (.inl rfl) rfl (ix1 t)
      = ∑ d : Fin 128, v (ix2 d t) := by
  refine (Ideal.multiReduction_add_single v 0x00000000#32 reduces_S128x1024_S1024 (.inl rfl) rfl (ix1 t)).trans ?_
  refine Finset.sum_congr rfl fun k _ => congrArg v ?_
  exact funext fun a => Fin.ext (by match a with | ⟨0, _⟩ => rfl | ⟨1, _⟩ => rfl)

/-- A sum over the rows of a `[512, 1024]` matrix, at column `t`. -/
theorem unitsum (v : FVec Ideal S512x1024 .f32) (t : Fin 1024) :
    multiReduction .add [0] S1024 v 0x00000000#32 reduces_S512x1024_S1024 (.inl rfl) rfl (ix1 t)
      = ∑ s : Fin 512, v (ix2 s t) := by
  refine (Ideal.multiReduction_add_single v 0x00000000#32 reduces_S512x1024_S1024 (.inl rfl) rfl (ix1 t)).trans ?_
  refine Finset.sum_congr rfl fun k _ => congrArg v ?_
  exact funext fun a => Fin.ext (by match a with | ⟨0, _⟩ => rfl | ⟨1, _⟩ => rfl)

/-- A maximum over the rows of a `[512, 1024]` matrix from -∞, at column `t`: the fold of `max` over the rows. -/
theorem unitmax (v : FVec Ideal S512x1024 .f32) (t : Fin 1024) :
    multiReduction .maximumf [0] S1024 v 0xFF800000#32 reduces_S512x1024_S1024 (.inl rfl) rfl (ix1 t)
      = (Finset.univ : Finset (Fin 512)).fold max ninfW (fun s => v (ix2 s t)) := by
  refine (Ideal.multiReduction_maximumf_single v 0xFF800000#32 reduces_S512x1024_S1024 (.inl rfl) rfl (ix1 t)).trans ?_
  refine Finset.fold_congr fun k _ => ?_
  show v (reduces_S512x1024_S1024.lift (ix1 t) k) = v (ix2 k t)
  refine congrArg v ?_
  exact funext fun a => Fin.ext (by match a with | ⟨0, _⟩ => rfl | ⟨1, _⟩ => rfl)

theorem usq_at (s : Fin 512) : usq x0 (ix1 s) = ∑ d : Fin 128, x0 (ix2 d s) * x0 (ix2 d s) :=
  rowsum512 (mulf x0 x0) s

theorem hsq_at (t : Fin 1024) : hsq x1 (ix1 t) = ∑ d : Fin 128, hc x1 t d * hc x1 t d := by
  refine (rowsum1024 (mulf (hmat x1) (hmat x1)) t).trans ?_
  refine Finset.sum_congr rfl fun d _ => ?_
  rw [mulf_apply, hmat_at]

/-! ## The contraction -/

/-- The left operand's contracted axis carries the contraction coordinate … -/
theorem lhs_contr (j : S512x1024.Idx) (q : dot_S128x512_S128x1024_S512x1024_0_0_1_1_n_n.contr.Idx) :
    (dot_S128x512_S128x1024_S512x1024_0_0_1_1_n_n.lhsIdx j q 0).val = (q ⟨0, by decide⟩).val :=
  dot_S128x512_S128x1024_S512x1024_0_0_1_1_n_n.lhsIdx_val_of_single rfl j q
/-- … and its free axis the output's row coordinate. -/
theorem lhs_free (j : S512x1024.Idx) (q : dot_S128x512_S128x1024_S512x1024_0_0_1_1_n_n.contr.Idx) :
    (dot_S128x512_S128x1024_S512x1024_0_0_1_1_n_n.lhsIdx j q 1).val = (j 0).val := by
  unfold DotDims.lhsIdx
  rw [dif_neg (show ¬(1 : Fin S128x512.rank) ∈ dot_S128x512_S128x1024_S512x1024_0_0_1_1_n_n.lhsBatch by decide),
    dif_pos (show (1 : Fin S128x512.rank) ∈ dot_S128x512_S128x1024_S512x1024_0_0_1_1_n_n.lhsNonContracting by decide)]
  rfl
/-- The right operand's contracted axis carries the contraction coordinate … -/
theorem rhs_contr (j : S512x1024.Idx) (q : dot_S128x512_S128x1024_S512x1024_0_0_1_1_n_n.contr.Idx) :
    (dot_S128x512_S128x1024_S512x1024_0_0_1_1_n_n.rhsIdx j q 0).val = (q ⟨0, by decide⟩).val :=
  dot_S128x512_S128x1024_S512x1024_0_0_1_1_n_n.rhsIdx_val_of_single rfl j q
/-- … and its free axis the output's column coordinate. -/
theorem rhs_free (j : S512x1024.Idx) (q : dot_S128x512_S128x1024_S512x1024_0_0_1_1_n_n.contr.Idx) :
    (dot_S128x512_S128x1024_S512x1024_0_0_1_1_n_n.rhsIdx j q 1).val = (j 1).val := by
  unfold DotDims.rhsIdx
  rw [dif_neg (show ¬(1 : Fin S128x1024.rank) ∈ dot_S128x512_S128x1024_S512x1024_0_0_1_1_n_n.rhsBatch by decide),
    dif_pos (show (1 : Fin S128x1024.rank) ∈ dot_S128x512_S128x1024_S512x1024_0_0_1_1_n_n.rhsNonContracting by decide)]
  rfl

/-- The product of the transposed codebook with a `[128, 1024]` matrix, into a zero accumulator, at `(s, t)`: the sum
    over the 128 rows of codebook entry `(d, s)` times matrix entry `(d, t)`. -/
theorem contract_at (v : FVec Ideal S128x1024 .f32) (s : Fin 512) (t : Fin 1024) :
    matmul dot_S128x512_S128x1024_S512x1024_0_0_1_1_n_n (some .fp32) x0 v (constant S512x1024 .f32 0x00000000#32) (ix2 s t)
      = ∑ d : Fin 128, x0 (ix2 d s) * v (ix2 d t) := by
  refine (Ideal.matmul_constant_zero_apply dot_S128x512_S128x1024_S512x1024_0_0_1_1_n_n (some .fp32) x0 v (ix2 s t)).trans ?_
  rw [← Equiv.sum_comp (contrEquiv1 dot_S128x512_S128x1024_S512x1024_0_0_1_1_n_n 128 rfl rfl).symm]
  refine Finset.sum_congr rfl fun k _ => ?_
  have hk := contrEquiv1_symm_val dot_S128x512_S128x1024_S512x1024_0_0_1_1_n_n 128 rfl rfl k
  have el : dot_S128x512_S128x1024_S512x1024_0_0_1_1_n_n.lhsIdx (ix2 s t) ((contrEquiv1 dot_S128x512_S128x1024_S512x1024_0_0_1_1_n_n 128 rfl rfl).symm k) = ix2 k s :=
    funext fun a => Fin.ext (by
      match a with
      | ⟨0, _⟩ => exact (lhs_contr _ _).trans hk
      | ⟨1, _⟩ => exact lhs_free _ _)
  have er : dot_S128x512_S128x1024_S512x1024_0_0_1_1_n_n.rhsIdx (ix2 s t) ((contrEquiv1 dot_S128x512_S128x1024_S512x1024_0_0_1_1_n_n 128 rfl rfl).symm k) = ix2 k t :=
    funext fun a => Fin.ext (by
      match a with
      | ⟨0, _⟩ => exact (rhs_contr _ _).trans hk
      | ⟨1, _⟩ => exact rhs_free _ _)
  rw [el, er]

theorem cross_at (s : Fin 512) (t : Fin 1024) :
    cross x0 x1 (ix2 s t) = ∑ d : Fin 128, um x0 d s * hc x1 t d := by
  refine (contract_at x0 (hmat x1) s t).trans ?_
  refine Finset.sum_congr rfl fun d _ => ?_
  rw [hmat_at]

/-! ## The softmax -/

theorem negd_at (s : Fin 512) (t : Fin 1024) : negd x0 x1 (ix2 s t) = negDist (um x0) (hc x1 t) s := by
  unfold negd negDist
  rw [subf_apply, addf_apply, subf_apply, mulf_apply, broadcast_apply, broadcast_apply, broadcastTo_1b_ab_apply,
    shapeCast_a_1a_apply, broadcastTo_a1_ab_apply, shapeCast_a_a1_apply, hsq_at, cross_at, usq_at]
  rfl

theorem cmax_at (t : Fin 1024) : cmax x0 x1 (ix1 t) = colMax (um x0) (hc x1 t) := by
  refine (unitmax (negd x0 x1) t).trans ?_
  unfold colMax
  exact Finset.fold_congr fun s _ => negd_at x0 x1 s t

theorem expv_at (s : Fin 512) (t : Fin 1024) : expv x0 x1 (ix2 s t) = expo (um x0) (hc x1 t) s := by
  unfold expv expo
  show Ideal.exp (subf (negd x0 x1) _ (ix2 s t)) = _
  rw [subf_apply, broadcastTo_1b_ab_apply, shapeCast_a_1a_apply, negd_at, cmax_at]

theorem esum_at (t : Fin 1024) : esum x0 x1 (ix1 t) = ∑ s : Fin 512, expo (um x0) (hc x1 t) s := by
  refine (unitsum (expv x0 x1) t).trans ?_
  exact Finset.sum_congr rfl fun s _ => expv_at x0 x1 s t

theorem quot_at (s : Fin 512) (t : Fin 1024) : quot x0 x1 (ix2 s t) = weight (um x0) (hc x1 t) s := by
  unfold quot weight
  rw [divf_apply, broadcastTo_1b_ab_apply, shapeCast_a_1a_apply, expv_at, esum_at]

/-- THE BODY'S VALUE at `(u, s, t)` of its block: the weight of unit `s` for column `t` of the input block. -/
theorem pay_at (u : Fin 1) (s : Fin 512) (t : Fin 1024) :
    k0_pay1 (F := Ideal) x0 x1 (ix3 u s t) = weight (um x0) (hc x1 t) s := by
  rw [pay_eq, shapeCast_ab_1ab_apply, quot_at]

end Cert.SoftAssign.Kern

end
-- ==== Proof.KernelValue.lean ====
/-
  The kernel's result array is `assign` of its two argument arrays.

  The grid has 32 × 4 points. At point `(b, q)` the pipeline stages the whole codebook (block `(0, 0)` of the second
  argument), the input block `[b, 0:128, 1024 q : 1024 (q + 1)]` and writes back the output block
  `[b, 0:512, 1024 q : 1024 (q + 1)]`. So entry `(0, s, t)` of what a point writes is the softmax weight of unit `s` for
  input column `(b, ·, 1024 q + t)`, which is entry `(b, s, 1024 q + t)` of `assign`: every point writes its own block
  of one whole-array function. The 128 blocks tile the output array (the point covering `(b, s, t)` is
  `(b, t / 1024)`), so after the run the array is that function.
-/
import proofs.«166544_j30099130810384_1_alg».proof.Proof.KernelPayload
import proofs.«166544_j30099130810384_1_alg».proof.Proof.Gen.KernelIdeal.Value
import Idealize.ShloMosaic.Lib.Pipeline.Value

noncomputable section

namespace Cert.SoftAssign.KernVal

open Cert.KernelIdeal Cert.KernelIdeal.Gen Idealize.ShloMosaic Idealize.ShloMosaic.TcCoe Idealize.SL.Sem
open Idealize.ShloMosaic.ValueIdx
open Idealize.ShloMosaic.Pipeline (Dat)
open Cert.SoftAssign

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices, decided over the 128 grid points: the codebook's block never moves; the input block moves with
    the output block on the batch and time axes; neither moves on its middle axis; the output's block indices stay in
    their ranges. -/
theorem idx_facts : ∀ t : Fin cfg0.N,
    win0_0.index t (0 : Fin 2) = 0 ∧ win0_0.index t (1 : Fin 2) = 0
    ∧ win0_1.index t (0 : Fin 3) = win0_2.index t (0 : Fin 3) ∧ win0_1.index t (1 : Fin 3) = 0
    ∧ win0_1.index t (2 : Fin 3) = win0_2.index t (2 : Fin 3)
    ∧ win0_2.index t (1 : Fin 3) = 0 ∧ win0_2.index t (0 : Fin 3) < 32 ∧ win0_2.index t (2 : Fin 3) < 4 :=
  (by decide +kernel : ∀ t : Fin grid0.N, _)

/-- Every pair (batch entry, time tile) is some grid point's output block. -/
theorem idx_onto : ∀ (q0 : Fin 32) (q2 : Fin 4), ∃ t : Fin cfg0.N, win0_2.index t = ![q0.val, 0, q2.val] :=
  (by decide +kernel : ∀ (q0 : Fin 32) (q2 : Fin 4), ∃ t : Fin grid0.N, win0_2.index t = ![q0.val, 0, q2.val])

/-- One block of the result, over plain arrays: if `x0` is the whole codebook `Uu` and `x1` holds the columns
    `off … off + 1023` of batch entry `b` of `H`, then the body's value at block index `j` is `assign H Uu` at the array
    index with `j`'s unit coordinate and `j`'s time coordinate shifted by `off`. -/
theorem block_eq (H : S32x128x4096.Idx → EReal) (Uu : S128x512.Idx → EReal)
    (x0 : FVec Ideal S128x512 .f32) (x1 : FVec Ideal S1x128x1024 .f32) (b : Fin 32) (off : Nat)
    (h0 : ∀ (d : Fin 128) (s : Fin 512), x0 (ix2 d s) = Uu (ix2 d s))
    (h1 : ∀ (d : Fin 128) (t : Fin 1024) (t' : Fin 4096), t'.val = off + t.val →
      x1 (ix3 (0 : Fin 1) d t) = H (ix3 b d t'))
    (j : S1x512x1024.Idx) (i : S32x512x4096.Idx)
    (hi0 : (i 0).val = b.val) (hi1 : (i 1).val = (j 1).val) (hi2 : (i 2).val = off + (j 2).val) :
    k0_pay1 (F := Ideal) x0 x1 j = assign H Uu i := by
  obtain ⟨u, s, t, rfl⟩ : ∃ (u : Fin 1) (s : Fin 512) (t : Fin 1024), j = ix3 u s t := ⟨j 0, j 1, j 2, eq_ix3 j⟩
  obtain ⟨b', s', t', rfl⟩ : ∃ (b' : Fin 32) (s' : Fin 512) (t' : Fin 4096), i = ix3 b' s' t' :=
    ⟨i 0, i 1, i 2, eq_ix3 i⟩
  obtain rfl : b' = b := Fin.ext hi0
  obtain rfl : s' = s := Fin.ext hi1
  rw [Kern.pay_at, assign_ix3]
  have e0 : Kern.um x0 = fun d s => Uu (ix2 d s) := funext fun d => funext fun s => h0 d s
  have e1 : Kern.hc x1 t = fun d => H (ix3 b' d t') := funext fun d => h1 d t t' hi2
  rw [e0, e1]

/-- The codebook's staged block is the whole second argument. -/
theorem iblk0_at (c : Dev nD) (t : Fin cfg0.N) (d : Fin 128) (s : Fin 512) :
    (iblk m c 0 t : FVec Ideal S128x512 .f32) (ix2 d s)
      = (m ((c : Thread nD τ).loc main_arg1) : S128x512.Idx → EReal) (ix2 d s) := by
  obtain ⟨e0, e1, -⟩ := idx_facts t
  unfold iblk
  rw [View.read_apply]
  show V m c main_arg1 _ = m (c.tc.loc main_arg1) _
  unfold V
  congr 1
  funext a
  apply Fin.ext
  match a with
  | ⟨0, _⟩ => show win0_0.index t (0 : Fin 2) * 128 + 1 * d.val = d.val; rw [e0]; omega
  | ⟨1, _⟩ => show win0_0.index t (1 : Fin 2) * 512 + 1 * s.val = s.val; rw [e1]; omega

/-- The input's staged block at a point holds 1024 consecutive columns of one batch entry of the first argument:
    the batch entry and the first column are the output block's. -/
theorem iblk1_at (c : Dev nD) (t : Fin cfg0.N) (d : Fin 128) (tt : Fin 1024) (b : Fin 32) (t' : Fin 4096)
    (hb : b.val = win0_2.index t (0 : Fin 3)) (ht : t'.val = win0_2.index t (2 : Fin 3) * 1024 + tt.val) :
    (iblk m c 1 t : FVec Ideal S1x128x1024 .f32) (ix3 (0 : Fin 1) d tt)
      = (m ((c : Thread nD τ).loc main_arg0) : S32x128x4096.Idx → EReal) (ix3 b d t') := by
  obtain ⟨-, -, e2, e3, e4, -⟩ := idx_facts t
  unfold iblk
  rw [View.read_apply]
  show V m c main_arg0 _ = m (c.tc.loc main_arg0) _
  unfold V
  congr 1
  funext a
  apply Fin.ext
  match a with
  | ⟨0, _⟩ => show win0_1.index t (0 : Fin 3) * 1 + 1 * 0 = b.val; rw [e2, hb]; omega
  | ⟨1, _⟩ => show win0_1.index t (1 : Fin 3) * 128 + 1 * d.val = d.val; rw [e3]; omega
  | ⟨2, _⟩ => show win0_1.index t (2 : Fin 3) * 1024 + 1 * tt.val = t'.val; rw [e4, ht]; omega

/-- WHAT POINT `t` WRITES BACK is block `t` of `assign` of the argument arrays. -/
theorem flushed_eq (c : Dev nD) (t : Fin cfg0.N) :
    (dats m 0 c).flushed 2 t = ((cfg0.win 2).blk t).view.read (Elt Ideal)
      (assign (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz3]
  simp only [View.ld_unit_zero (S := S128x512) hz2, View.ld_unit_zero (S := S1x128x1024) hz3]
  obtain ⟨-, -, -, -, -, e5, e6, e7⟩ := idx_facts t
  funext j
  show k0_pay1 (F := Ideal) (iblk m c 0 t) (iblk m c 1 t) j
    = assign (m ((c : Thread nD τ).loc main_arg0)) (m ((c : Thread nD τ).loc main_arg1)) (((cfg0.win 2).blk t).view.emb j)
  have hj0 : (j 0).val < 1 := (j 0).isLt
  refine block_eq (m ((c : Thread nD τ).loc main_arg0)) (m ((c : Thread nD τ).loc main_arg1)) (iblk m c 0 t) (iblk m c 1 t)
    ⟨win0_2.index t (0 : Fin 3), e6⟩ (win0_2.index t (2 : Fin 3) * 1024)
    (fun d s => iblk0_at m c t d s) (fun d tt t' h => iblk1_at m c t d tt _ t' rfl h) j _ ?_ ?_ ?_
  · show win0_2.index t (0 : Fin 3) * 1 + 1 * (j 0).val = win0_2.index t (0 : Fin 3); omega
  · show win0_2.index t (1 : Fin 3) * 512 + 1 * (j 1).val = (j 1).val; rw [e5]; omega
  · show win0_2.index t (2 : Fin 3) * 1024 + 1 * (j 2).val = win0_2.index t (2 : Fin 3) * 1024 + (j 2).val; omega

/-- An index of the output array is in point `t`'s block iff each coordinate is in the block's range on its axis. -/
theorem mem_blk (t : Fin cfg0.N) (i : S32x512x4096.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0).slice (win0_2.rect t)).set ↔ _
  rw [View.set_slice_whole, Rect.mem_set_unit]
  exact Iff.rfl

/-- The blocks tile the output array: index `(b, s, t)` is in the block of the point with batch entry `b` and time
    tile `t / 1024`. -/
theorem cover (i : S32x512x4096.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 4096 := (i 2).isLt
  obtain ⟨t, ht⟩ := idx_onto ⟨(i 0).val, hi0⟩ ⟨(i 2).val / 1024, by omega⟩
  have q0 : win0_2.index t (0 : Fin 3) = (i 0).val := congrFun ht 0
  have q1 : win0_2.index t (1 : Fin 3) = 0 := congrFun ht 1
  have q2 : win0_2.index t (2 : Fin 3) = (i 2).val / 1024 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1; omega
  | ⟨1, _⟩ =>
    show win0_2.index t (1 : Fin 3) * 512 ≤ (i 1).val ∧ (i 1).val < win0_2.index t (1 : Fin 3) * 512 + 512; omega
  | ⟨2, _⟩ =>
    show win0_2.index t (2 : Fin 3) * 1024 ≤ (i 2).val ∧ (i 2).val < win0_2.index t (2 : Fin 3) * 1024 + 1024; omega

/-- THE ARRAY after the run is `assign` of the argument arrays. -/
theorem final (c : Dev nD) : (dats m 0 c).arrAt 2 cfg0.N
    = assign (m ((c : Thread nD τ).loc main_arg0)) (m ((c : Thread nD τ).loc main_arg1)) :=
  (dats m 0 c).arrAt_eq_of_cover 2 _ (fun t _ => flushed_eq m c t) cover

/-- The kernel's run: the result array ends at `assign` of the arguments, the arguments unchanged. -/
theorem run : θ_run defs (onTc (τ := τ) (main (F := Ideal))) ⟨m, fun _ => 0, ρ⟩ fun r => ∀ c : Dev nD,
      r.2.mem ((c : Thread nD τ).loc main_v0)
        = assign (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.SoftAssign.KernVal

end
-- ==== Proof.lean ====
/-
  A soft assignment of input columns to a codebook, as a Pallas kernel and as plain jnp: for every batch entry `b`
  and time step `t` the column `H[b, ·, t]` of 128 numbers is compared with each of 512 memory units (the columns of
  `units`) by the expanded squared distance ‖h‖² − 2⟨u, h⟩ + ‖u‖², and the result `[b, s, t]` is the softmax over the
  units `s` of the negated distances, computed by subtracting the maximum, exponentiating and dividing by the sum.

  The kernel tiles the time axis in blocks of 1024 and produces the `(units, time)` layout directly; the reference
  transposes the input, works in `(time, units)` layout and transposes back. On the extended reals both are one
  function, `Cert.SoftAssign.assign` (Proof/Spec.lean): the kernel's matrix product into a zero accumulator and the
  host's contraction are the same sum of products up to the order of the two factors; a reduction over an axis is a
  finite sum, or a fold of `max` from -∞, on either side; subtracting from zero is negating; the reference's extra
  maximum with -∞ is the identity. No law used needs the inputs to be finite, so the precondition is never opened.

  Proof/RefValue.lean reads the reference operation by operation down to `assign`; Proof/KernelPayload.lean does the same
  for the kernel body on one block; Proof/KernelValue.lean places each grid point's block in the whole array and shows the
  blocks tile it. The three frames are the generated frame runs, and the idealisation rewrote nothing.
-/
import proofs.«166544_j30099130810384_1_alg».proof.Defs
import proofs.«166544_j30099130810384_1_alg».proof.Proof.Gen.Kernel
import proofs.«166544_j30099130810384_1_alg».proof.Proof.Gen.Kernel.Frame
import proofs.«166544_j30099130810384_1_alg».proof.Proof.Gen.KernelIdeal
import proofs.«166544_j30099130810384_1_alg».proof.Proof.Gen.KernelIdeal.Frame
import proofs.«166544_j30099130810384_1_alg».proof.Proof.Gen.KernelIdeal.Value
import proofs.«166544_j30099130810384_1_alg».proof.Proof.Gen.ReferenceIdeal
import proofs.«166544_j30099130810384_1_alg».proof.Proof.Gen.ReferenceIdeal.Run
import proofs.«166544_j30099130810384_1_alg».proof.Proof.Gen.ReferenceIdeal.Read
import proofs.«166544_j30099130810384_1_alg».proof.Proof.Gen.Pre_finite_inputs
import proofs.«166544_j30099130810384_1_alg».proof.Proof.RefValue
import proofs.«166544_j30099130810384_1_alg».proof.Proof.KernelValue

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the two arguments, the idealized kernel ends with its result array at `assign` of the
    arguments and the reference with its result at the same function of the same arguments. -/
theorem algebraic : Cert.algebraic_KernelIdeal_ReferenceIdeal := by
  intro m ρ m' ρ' _ hagree
  refine ⟨fun c => Cert.SoftAssign.assign (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.SoftAssign.KernVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.SoftAssign.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
